-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x602 : Shape := ⟨2, ![200000, 602]⟩
abbrev S602x41 : Shape := ⟨2, ![602, 41]⟩
abbrev S41 : Shape := ⟨1, ![41]⟩
abbrev S2x3200000 : Shape := ⟨2, ![2, 3200000]⟩
abbrev S_ : Shape := ⟨0, ![]⟩

class Facts : Prop where
  bcast_S_S200000x602 : S_.BroadcastsInDim S200000x602 (![] : Fin 0 → Fin S200000x602.rank)
  reducesTo_S200000x602_S_d0_1 : S200000x602.ReducesTo [0, 1] S_
  h_S_ : 0 < S_.numel
  bcast_S_S602x41 : S_.BroadcastsInDim S602x41 (![] : Fin 0 → Fin S602x41.rank)
  reducesTo_S602x41_S_d0_1 : S602x41.ReducesTo [0, 1] S_
  bcast_S_S41 : S_.BroadcastsInDim S41 (![] : Fin 0 → Fin S41.rank)
  reducesTo_S41_S_d0 : S41.ReducesTo [0] S_

variable [Facts]

def fn {F : FTy → Type} [FloatOps F] (main_arg0 : FVec F S200000x602 .f32) (main_arg1 : FVec F S602x41 .f32) (main_arg2 : FVec F S41 .f32) (main_arg3 : IVec S2x3200000 32) : IVec S_ 1 :=
  let main_v0 : FVec F S200000x602 .f32 := Host.absf main_arg0
  let main_cst : FVec F S_ .f32 := constant S_ .f32 0x7F800000#32
  let main_v1 : FVec F S200000x602 .f32 := broadcastInDim S200000x602 ![] bcast_S_S200000x602 main_cst
  let main_v2 : IVec S200000x602 1 := cmpf .olt main_v0 main_v1
  let main_c : IVec S_ 1 := constantI S_ 1 1#1
  let main_v3 : IVec S_ 1 := (fun x v => Host.reduce IntOp.andi x v reducesTo_S200000x602_S_d0_1 h_S_) main_v2 main_c
  let main_v4 : FVec F S602x41 .f32 := Host.absf main_arg1
  let main_cst_0 : FVec F S_ .f32 := constant S_ .f32 0x7F800000#32
  let main_v5 : FVec F S602x41 .f32 := broadcastInDim S602x41 ![] bcast_S_S602x41 main_cst_0
  let main_v6 : IVec S602x41 1 := cmpf .olt main_v4 main_v5
  let main_c_1 : IVec S_ 1 := constantI S_ 1 1#1
  let main_v7 : IVec S_ 1 := (fun x v => Host.reduce IntOp.andi x v reducesTo_S602x41_S_d0_1 h_S_) main_v6 main_c_1
  let main_v8 : IVec S_ 1 := andi main_v3 main_v7
  let main_v9 : FVec F S41 .f32 := Host.absf main_arg2
  let main_cst_2 : FVec F S_ .f32 := constant S_ .f32 0x7F800000#32
  let main_v10 : FVec F S41 .f32 := broadcastInDim S41 ![] bcast_S_S41 main_cst_2
  let main_v11 : IVec S41 1 := cmpf .olt main_v9 main_v10
  let main_c_3 : IVec S_ 1 := constantI S_ 1 1#1
  let main_v12 : IVec S_ 1 := (fun x v => Host.reduce IntOp.andi x v reducesTo_S41_S_d0 h_S_) main_v11 main_c_3
  let main_v13 : IVec S_ 1 := andi main_v8 main_v12
  main_v13
-- ==== Kernel.lean ====
abbrev S200000x602 : Shape := ⟨2, ![200000, 602]⟩
abbrev S602x41 : Shape := ⟨2, ![602, 41]⟩
abbrev S41 : Shape := ⟨1, ![41]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S200000x41 : Shape := ⟨2, ![200000, 41]⟩
abbrev S8000x602 : Shape := ⟨2, ![8000, 602]⟩
abbrev S8000x41 : Shape := ⟨2, ![8000, 41]⟩
abbrev S3400000x41 : Shape := ⟨2, ![3400000, 41]⟩
abbrev S1x41 : Shape := ⟨2, ![1, 41]⟩
abbrev S200000x1 : Shape := ⟨2, ![200000, 1]⟩

abbrev nBuf : Space → Nat
  | .hbm => 75
  | .vmem => 5
  | .smem => 0
  | _ => 0

abbrev bufTy : (tb : Table) → Fin (tcTables nBuf tb) → BufTy
  | .hbm, ⟨0, _⟩ => ⟨S200000x602, .f32⟩
  | .hbm, ⟨1, _⟩ => ⟨S602x41, .f32⟩
  | .hbm, ⟨2, _⟩ => ⟨S41, .f32⟩
  | .hbm, ⟨3, _⟩ => ⟨S2x3200000, .i32⟩
  | .hbm, ⟨4, _⟩ => ⟨S200000, .i32⟩
  | .hbm, ⟨5, _⟩ => ⟨S1x3200000, .i32⟩
  | .hbm, ⟨6, _⟩ => ⟨S3200000, .i32⟩
  | .hbm, ⟨7, _⟩ => ⟨S3400000, .i32⟩
  | .hbm, ⟨8, _⟩ => ⟨S1x3200000, .i32⟩
  | .hbm, ⟨9, _⟩ => ⟨S3200000, .i32⟩
  | .hbm, ⟨10, _⟩ => ⟨S3400000, .i32⟩
  | .hbm, ⟨11, _⟩ => ⟨S_, .f32⟩
  | .hbm, ⟨12, _⟩ => ⟨S3400000, .f32⟩
  | .hbm, ⟨13, _⟩ => ⟨S_, .f32⟩
  | .hbm, ⟨14, _⟩ => ⟨S200000, .f32⟩
  | .hbm, ⟨15, _⟩ => ⟨S3400000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .f32⟩
  | .hbm, ⟨20, _⟩ => ⟨S200000, .f32⟩
  | .hbm, ⟨21, _⟩ => ⟨S_, .i32⟩
  | .hbm, ⟨22, _⟩ => ⟨S3400000, .i32⟩
  | .hbm, ⟨23, _⟩ => ⟨S3400000, .i1⟩
  | .hbm, ⟨24, _⟩ => ⟨S_, .i32⟩
  | .hbm, ⟨25, _⟩ => ⟨S3400000, .i32⟩
  | .hbm, ⟨26, _⟩ => ⟨S3400000, .i32⟩
  | .hbm, ⟨27, _⟩ => ⟨S3400000, .i32⟩
  | .hbm, ⟨28, _⟩ => ⟨S3400000x1, .i32⟩
  | .hbm, ⟨29, _⟩ => ⟨S3400000, .f32⟩
  | .hbm, ⟨30, _⟩ => ⟨S_, .i32⟩
  | .hbm, ⟨31, _⟩ => ⟨S3400000, .i32⟩
  | .hbm, ⟨32, _⟩ => ⟨S3400000, .i1⟩
  | .hbm, ⟨33, _⟩ => ⟨S_, .i32⟩
  | .hbm, ⟨34, _⟩ => ⟨S3400000, .i32⟩
  | .hbm, ⟨35, _⟩ => ⟨S3400000, .i32⟩
  | .hbm, ⟨36, _⟩ => ⟨S3400000, .i32⟩
  | .hbm, ⟨37, _⟩ => ⟨S3400000x1, .i32⟩
  | .hbm, ⟨38, _⟩ => ⟨S3400000, .f32⟩
  | .hbm, ⟨39, _⟩ => ⟨S3400000, .f32⟩
  | .hbm, ⟨40, _⟩ => ⟨S200000x41, .f32⟩
  | .hbm, ⟨41, _⟩ => ⟨S_, .i32⟩
  | .hbm, ⟨42, _⟩ => ⟨S3400000, .i32⟩
  | .hbm, ⟨43, _⟩ => ⟨S3400000, .i1⟩
  | .hbm, ⟨44, _⟩ => ⟨S_, .i32⟩
  | .hbm, ⟨45, _⟩ => ⟨S3400000, .i32⟩
  | .hbm, ⟨46, _⟩ => ⟨S3400000, .i32⟩
  | .hbm, ⟨47, _⟩ => ⟨S3400000, .i32⟩
  | .hbm, ⟨48, _⟩ => ⟨S3400000x1, .i32⟩
  | .hbm, ⟨49, _⟩ => ⟨S3400000x41, .f32⟩
  | .hbm, ⟨50, _⟩ => ⟨S3400000x1, .f32⟩
  | .hbm, ⟨51, _⟩ => ⟨S3400000x41, .f32⟩
  | .hbm, ⟨52, _⟩ => ⟨S3400000x41, .f32⟩
  | .hbm, ⟨53, _⟩ => ⟨S_, .f32⟩
  | .hbm, ⟨54, _⟩ => ⟨S200000x41, .f32⟩
  | .hbm, ⟨55, _⟩ => ⟨S3400000x1, .i32⟩
  | .hbm, ⟨56, _⟩ => ⟨S200000x41, .f32⟩
  | .hbm, ⟨57, _⟩ => ⟨S1x41, .f32⟩
  | .hbm, ⟨58, _⟩ => ⟨S200000x41, .f32⟩
  | .hbm, ⟨59, _⟩ => ⟨S200000x41, .f32⟩
  | .hbm, ⟨60, _⟩ => ⟨S_, .f32⟩
  | .hbm, ⟨61, _⟩ => ⟨S200000, .f32⟩
  | .hbm, ⟨62, _⟩ => ⟨S_, .f32⟩
  | .hbm, ⟨63, _⟩ => ⟨S200000, .f32⟩
  | .hbm, ⟨64, _⟩ => ⟨S200000, .f32⟩
  | .hbm, ⟨65, _⟩ => ⟨S200000x1, .f32⟩
  | .hbm, ⟨66, _⟩ => ⟨S200000x41, .f32⟩
  | .hbm, ⟨67, _⟩ => ⟨S200000x41, .f32⟩
  | .hbm, ⟨68, _⟩ => ⟨S200000x41, .f32⟩
  | .hbm, ⟨69, _⟩ => ⟨S_, .f32⟩
  | .hbm, ⟨70, _⟩ => ⟨S200000, .f32⟩
  | .hbm, ⟨71, _⟩ => ⟨S200000x1, .f32⟩
  | .hbm, ⟨72, _⟩ => ⟨S200000x1, .f32⟩
  | .hbm, ⟨73, _⟩ => ⟨S200000x41, .f32⟩
  | .hbm, ⟨74, _⟩ => ⟨S200000x41, .f32⟩
  | .local _ .vmem, ⟨0, _⟩ => ⟨S8000x602, .f32⟩
  | .local _ .vmem, ⟨1, _⟩ => ⟨S8000x602, .f32⟩
  | .local _ .vmem, ⟨2, _⟩ => ⟨S602x41, .f32⟩
  | .local _ .vmem, ⟨3, _⟩ => ⟨S8000x41, .f32⟩
  | .local _ .vmem, ⟨4, _⟩ => ⟨S8000x41, .f32⟩
  | _, _ => ⟨S200000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_cst : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_cst_1 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_v46 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S602x41 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x41 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  inb_S8000x602_S8000x602_0_0 : ∀ a, (![0, 0] : Fin 2 → Nat) a + S8000x602.size a ≤ S8000x602.size a
  h_S8000x602 : 0 < S8000x602.numel
  inb_S602x41_S602x41_0_0 : ∀ a, (![0, 0] : Fin 2 → Nat) a + S602x41.size a ≤ S602x41.size a
  h_S602x41 : 0 < S602x41.numel
  inb_S8000x41_S8000x41_0_0 : ∀ a, (![0, 0] : Fin 2 → Nat) a + S8000x41.size a ≤ S8000x41.size a
  h_S8000x41 : 0 < S8000x41.numel
  bcast_S3400000x1_S3400000x41_0_1 : S3400000x1.BroadcastsInDim S3400000x41 (![0, 1] : Fin 2 → Fin S3400000x41.rank)
  bcast_S_S200000x41 : S_.BroadcastsInDim S200000x41 (![] : Fin 0 → Fin S200000x41.rank)
  bcast_S41_S1x41_1 : S41.BroadcastsInDim S1x41 (![1] : Fin 1 → Fin S1x41.rank)
  bcast_S1x41_S200000x41_0_1 : S1x41.BroadcastsInDim S200000x41 (![0, 1] : Fin 2 → Fin S200000x41.rank)
  reducesTo_S200000x41_S200000_d1 : S200000x41.ReducesTo [1] S200000
  h_S_ : 0 < S_.numel
  bcast_S200000_S200000x1_0 : S200000.BroadcastsInDim S200000x1 (![0] : Fin 1 → Fin S200000x1.rank)
  bcast_S200000x1_S200000x41_0_1 : S200000x1.BroadcastsInDim S200000x41 (![0, 1] : Fin 2 → Fin S200000x41.rank)
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S8000x602_S602x41_S8000x41_1_0_0_1_n_n_wf : DotDims.WF S8000x602 S602x41 S8000x41 [1] [0] [0] [1] [] []
  gather_S200000x41_S3400000x1_S3400000x41_1_0_n_n_0_1_141_wf : GatherDims.WF S200000x41 S3400000x1 S3400000x41 [1] [0] [] [0] [] 1 ![1, 41]
  scatter_S200000x41_S3400000x1_S3400000x41_1_0_0_1_wf : ScatterDims.WF S200000x41 S3400000x1 S3400000x41 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x602.size a ≤ S200000x602.size a
  hwx0_0 : ∀ i : grid0.Coords, EltTy.bits .f32 = 32 ∨ (Rect.block (s := S200000x602) S8000x602.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S602x41.size a ≤ S602x41.size a
  hwx0_1 : ∀ i : grid0.Coords, EltTy.bits .f32 = 32 ∨ (Rect.block (s := S602x41) S602x41.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x41.size a ≤ S200000x41.size a
  hwx0_2 : ∀ i : grid0.Coords, EltTy.bits .f32 = 32 ∨ (Rect.block (s := S200000x41) S8000x41.size (cc0_transform_2 i) (hinb0_2 i)).WholeWords (EltTy.packing .f32)

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S8000x602_S602x41_S8000x41_1_0_0_1_n_n : DotDims S8000x602 S602x41 S8000x41 where
  lhsContracting := [1]
  rhsContracting := [0]
  lhsNonContracting := [0]
  rhsNonContracting := [1]
  lhsBatch := []
  rhsBatch := []
  wf := dot_S8000x602_S602x41_S8000x41_1_0_0_1_n_n_wf
def gather_S200000x41_S3400000x1_S3400000x41_1_0_n_n_0_1_141 : GatherDims S200000x41 S3400000x1 S3400000x41 where
  offsetDims := [1]
  collapsedSliceDims := [0]
  operandBatchingDims := []
  startIndicesBatchingDims := []
  startIndexMap := [0]
  indexVectorDim := 1
  sliceSizes := ![1, 41]
  wf := gather_S200000x41_S3400000x1_S3400000x41_1_0_n_n_0_1_141_wf
def scatter_S200000x41_S3400000x1_S3400000x41_1_0_0_1 : ScatterDims S200000x41 S3400000x1 S3400000x41 where
  updateWindowDims := [1]
  insertedWindowDims := [0]
  scatterDimsToOperandDims := [0]
  indexVectorDim := 1
  wf := scatter_S200000x41_S3400000x1_S3400000x41_1_0_0_1_wf

abbrev win0_0 : Pipeline.Window sig grid0 :=
  Pipeline.Window.ofSpec (Memref.whole main_arg0) S8000x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S602x41.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S8000x41.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x602 : Shape := ⟨2, ![200000, 602]⟩
abbrev S602x41 : Shape := ⟨2, ![602, 41]⟩
abbrev S41 : Shape := ⟨1, ![41]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S200000x41 : Shape := ⟨2, ![200000, 41]⟩
abbrev S3400000x41 : Shape := ⟨2, ![3400000, 41]⟩
abbrev S1x41 : Shape := ⟨2, ![1, 41]⟩
abbrev S200000x1 : Shape := ⟨2, ![200000, 1]⟩

abbrev nBuf : Space → Nat
  | .hbm => 75
  | .vmem => 0
  | .smem => 0
  | _ => 0

abbrev bufTy : (tb : Table) → Fin (tcTables nBuf tb) → BufTy
  | .hbm, ⟨0, _⟩ => ⟨S200000x602, .f32⟩
  | .hbm, ⟨1, _⟩ => ⟨S602x41, .f32⟩
  | .hbm, ⟨2, _⟩ => ⟨S41, .f32⟩
  | .hbm, ⟨3, _⟩ => ⟨S2x3200000, .i32⟩
  | .hbm, ⟨4, _⟩ => ⟨S200000, .i32⟩
  | .hbm, ⟨5, _⟩ => ⟨S1x3200000, .i32⟩
  | .hbm, ⟨6, _⟩ => ⟨S3200000, .i32⟩
  | .hbm, ⟨7, _⟩ => ⟨S3400000, .i32⟩
  | .hbm, ⟨8, _⟩ => ⟨S1x3200000, .i32⟩
  | .hbm, ⟨9, _⟩ => ⟨S3200000, .i32⟩
  | .hbm, ⟨10, _⟩ => ⟨S3400000, .i32⟩
  | .hbm, ⟨11, _⟩ => ⟨S_, .f32⟩
  | .hbm, ⟨12, _⟩ => ⟨S3400000, .f32⟩
  | .hbm, ⟨13, _⟩ => ⟨S_, .f32⟩
  | .hbm, ⟨14, _⟩ => ⟨S200000, .f32⟩
  | .hbm, ⟨15, _⟩ => ⟨S3400000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .f32⟩
  | .hbm, ⟨20, _⟩ => ⟨S200000, .f32⟩
  | .hbm, ⟨21, _⟩ => ⟨S_, .i32⟩
  | .hbm, ⟨22, _⟩ => ⟨S3400000, .i32⟩
  | .hbm, ⟨23, _⟩ => ⟨S3400000, .i1⟩
  | .hbm, ⟨24, _⟩ => ⟨S_, .i32⟩
  | .hbm, ⟨25, _⟩ => ⟨S3400000, .i32⟩
  | .hbm, ⟨26, _⟩ => ⟨S3400000, .i32⟩
  | .hbm, ⟨27, _⟩ => ⟨S3400000, .i32⟩
  | .hbm, ⟨28, _⟩ => ⟨S3400000x1, .i32⟩
  | .hbm, ⟨29, _⟩ => ⟨S3400000, .f32⟩
  | .hbm, ⟨30, _⟩ => ⟨S_, .i32⟩
  | .hbm, ⟨31, _⟩ => ⟨S3400000, .i32⟩
  | .hbm, ⟨32, _⟩ => ⟨S3400000, .i1⟩
  | .hbm, ⟨33, _⟩ => ⟨S_, .i32⟩
  | .hbm, ⟨34, _⟩ => ⟨S3400000, .i32⟩
  | .hbm, ⟨35, _⟩ => ⟨S3400000, .i32⟩
  | .hbm, ⟨36, _⟩ => ⟨S3400000, .i32⟩
  | .hbm, ⟨37, _⟩ => ⟨S3400000x1, .i32⟩
  | .hbm, ⟨38, _⟩ => ⟨S3400000, .f32⟩
  | .hbm, ⟨39, _⟩ => ⟨S3400000, .f32⟩
  | .hbm, ⟨40, _⟩ => ⟨S200000x41, .f32⟩
  | .hbm, ⟨41, _⟩ => ⟨S_, .i32⟩
  | .hbm, ⟨42, _⟩ => ⟨S3400000, .i32⟩
  | .hbm, ⟨43, _⟩ => ⟨S3400000, .i1⟩
  | .hbm, ⟨44, _⟩ => ⟨S_, .i32⟩
  | .hbm, ⟨45, _⟩ => ⟨S3400000, .i32⟩
  | .hbm, ⟨46, _⟩ => ⟨S3400000, .i32⟩
  | .hbm, ⟨47, _⟩ => ⟨S3400000, .i32⟩
  | .hbm, ⟨48, _⟩ => ⟨S3400000x1, .i32⟩
  | .hbm, ⟨49, _⟩ => ⟨S3400000x41, .f32⟩
  | .hbm, ⟨50, _⟩ => ⟨S3400000x1, .f32⟩
  | .hbm, ⟨51, _⟩ => ⟨S3400000x41, .f32⟩
  | .hbm, ⟨52, _⟩ => ⟨S3400000x41, .f32⟩
  | .hbm, ⟨53, _⟩ => ⟨S_, .f32⟩
  | .hbm, ⟨54, _⟩ => ⟨S200000x41, .f32⟩
  | .hbm, ⟨55, _⟩ => ⟨S3400000x1, .i32⟩
  | .hbm, ⟨56, _⟩ => ⟨S200000x41, .f32⟩
  | .hbm, ⟨57, _⟩ => ⟨S1x41, .f32⟩
  | .hbm, ⟨58, _⟩ => ⟨S200000x41, .f32⟩
  | .hbm, ⟨59, _⟩ => ⟨S200000x41, .f32⟩
  | .hbm, ⟨60, _⟩ => ⟨S_, .f32⟩
  | .hbm, ⟨61, _⟩ => ⟨S200000, .f32⟩
  | .hbm, ⟨62, _⟩ => ⟨S_, .f32⟩
  | .hbm, ⟨63, _⟩ => ⟨S200000, .f32⟩
  | .hbm, ⟨64, _⟩ => ⟨S200000, .f32⟩
  | .hbm, ⟨65, _⟩ => ⟨S200000x1, .f32⟩
  | .hbm, ⟨66, _⟩ => ⟨S200000x41, .f32⟩
  | .hbm, ⟨67, _⟩ => ⟨S200000x41, .f32⟩
  | .hbm, ⟨68, _⟩ => ⟨S200000x41, .f32⟩
  | .hbm, ⟨69, _⟩ => ⟨S_, .f32⟩
  | .hbm, ⟨70, _⟩ => ⟨S200000, .f32⟩
  | .hbm, ⟨71, _⟩ => ⟨S200000x1, .f32⟩
  | .hbm, ⟨72, _⟩ => ⟨S200000x1, .f32⟩
  | .hbm, ⟨73, _⟩ => ⟨S200000x41, .f32⟩
  | .hbm, ⟨74, _⟩ => ⟨S200000x41, .f32⟩
  | _, _ => ⟨S200000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_cst : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_cst_1 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_v46 : Ref sig .tc := ⟨.hbm, 74, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  bcast_S3400000x1_S3400000x41_0_1 : S3400000x1.BroadcastsInDim S3400000x41 (![0, 1] : Fin 2 → Fin S3400000x41.rank)
  bcast_S_S200000x41 : S_.BroadcastsInDim S200000x41 (![] : Fin 0 → Fin S200000x41.rank)
  bcast_S41_S1x41_1 : S41.BroadcastsInDim S1x41 (![1] : Fin 1 → Fin S1x41.rank)
  bcast_S1x41_S200000x41_0_1 : S1x41.BroadcastsInDim S200000x41 (![0, 1] : Fin 2 → Fin S200000x41.rank)
  reducesTo_S200000x41_S200000_d1 : S200000x41.ReducesTo [1] S200000
  h_S_ : 0 < S_.numel
  bcast_S200000_S200000x1_0 : S200000.BroadcastsInDim S200000x1 (![0] : Fin 1 → Fin S200000x1.rank)
  bcast_S200000x1_S200000x41_0_1 : S200000x1.BroadcastsInDim S200000x41 (![0, 1] : Fin 2 → Fin S200000x41.rank)
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S200000x602_S602x41_S200000x41_1_0_0_1_n_n_wf : DotDims.WF S200000x602 S602x41 S200000x41 [1] [0] [0] [1] [] []
  gather_S200000x41_S3400000x1_S3400000x41_1_0_n_n_0_1_141_wf : GatherDims.WF S200000x41 S3400000x1 S3400000x41 [1] [0] [] [0] [] 1 ![1, 41]
  scatter_S200000x41_S3400000x1_S3400000x41_1_0_0_1_wf : ScatterDims.WF S200000x41 S3400000x1 S3400000x41 [1] [0] [0] 1

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S200000x602_S602x41_S200000x41_1_0_0_1_n_n : DotDims S200000x602 S602x41 S200000x41 where
  lhsContracting := [1]
  rhsContracting := [0]
  lhsNonContracting := [0]
  rhsNonContracting := [1]
  lhsBatch := []
  rhsBatch := []
  wf := dot_S200000x602_S602x41_S200000x41_1_0_0_1_n_n_wf
def gather_S200000x41_S3400000x1_S3400000x41_1_0_n_n_0_1_141 : GatherDims S200000x41 S3400000x1 S3400000x41 where
  offsetDims := [1]
  collapsedSliceDims := [0]
  operandBatchingDims := []
  startIndicesBatchingDims := []
  startIndexMap := [0]
  indexVectorDim := 1
  sliceSizes := ![1, 41]
  wf := gather_S200000x41_S3400000x1_S3400000x41_1_0_n_n_0_1_141_wf
def scatter_S200000x41_S3400000x1_S3400000x41_1_0_0_1 : ScatterDims S200000x41 S3400000x1 S3400000x41 where
  updateWindowDims := [1]
  insertedWindowDims := [0]
  scatterDimsToOperandDims := [0]
  indexVectorDim := 1
  wf := scatter_S200000x41_S3400000x1_S3400000x41_1_0_0_1_wf

class Facts : Prop extends Facts₀ where

variable [Facts]
-- ==== Proof.LibPlainDot.lean ====
/-
  A matrix product with the plain dimension numbers — rows × contraction by contraction × columns, no batch
  axis — into a zero accumulator, read at the ideal values at an entry `(i, j)`: the sum over the contraction
  coordinate `q` of `lhs (i, q) · rhs (q, j)`.  General in the three extents and in the dimension-number record,
  which is only asked to list the axes as the plain product does.
-/
import Idealize.ShloMosaic.Lib.ValueIdx
import Idealize.ShloMosaic.PureOps.Ideal.Laws

noncomputable section

namespace Cert.PlainDot

open Idealize.ShloMosaic Idealize.ShloMosaic.ValueIdx

/-- The entry `(i, j)` of `lhs · rhs` accumulated into zeros is `∑ q, lhs (i, q) · rhs (q, j)`. -/
theorem matmul_zero_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ q : Fin K, l (ix2 i q) * r (ix2 q j) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  -- the two operand indices at `(i, j)` and a contraction position, coordinate by coordinate
  have l0 : ∀ k, (d.lhsIdx (ix2 i j) k (0 : Fin 2)).val = i.val := fun k => by
    subst hd
    unfold DotDims.lhsIdx
    rw [dif_neg (show ¬ (0 : Fin 2) ∈ ([] : List (Fin 2)) from List.not_mem_nil),
      dif_pos (show (0 : Fin 2) ∈ [(0 : Fin 2)] from List.mem_singleton.mpr rfl)]
    rfl
  have r1 : ∀ k, (d.rhsIdx (ix2 i j) k (1 : Fin 2)).val = j.val := fun k => by
    subst hd
    unfold DotDims.rhsIdx
    rw [dif_neg (show ¬ (1 : Fin 2) ∈ ([] : List (Fin 2)) from List.not_mem_nil),
      dif_pos (show (1 : Fin 2) ∈ [(1 : Fin 2)] from List.mem_singleton.mpr rfl)]
    rfl
  simp only [matmul]
  rw [Ideal.matmul_constant_zero_apply, ← Equiv.sum_comp (contrEquiv1 d K hr hs).symm]
  refine Finset.sum_congr rfl fun q _ => ?_
  have hq := contrEquiv1_symm_val d K hr hs q
  have el : d.lhsIdx (ix2 i j) ((contrEquiv1 d K hr hs).symm q) = ix2 i q := funext fun a => Fin.ext (by
    match a with
    | ⟨0, _⟩ => exact l0 _
    | ⟨1, _⟩ => exact (d.lhsIdx_val_of_single hlc _ _).trans hq)
  have er : d.rhsIdx (ix2 i j) ((contrEquiv1 d K hr hs).symm q) = ix2 q j := funext fun a => Fin.ext (by
    match a with
    | ⟨0, _⟩ => exact (d.rhsIdx_val_of_single hrc _ _).trans hq
    | ⟨1, _⟩ => exact r1 _)
  rw [el, er]

end Cert.PlainDot

end
-- ==== Proof.Dense.lean ====
/-
  The dense layer of the graph convolution as one function of its two matrices.  With `x` the node features
  (200000 rows, 602 columns) and `w` the weights (602 rows, 41 columns), entry `(r, j)` of `x · w` is the sum
  over the feature `q` of `x (r, q) · w (q, j)`, taken on the extended reals.  A row of the product depends on the
  same row of `x` and on all of `w` only, which is why the product may be computed a block of rows at a time.
-/
import Idealize.ShloMosaic.Lib.ValueIdx
import Idealize.ShloMosaic.PureOps.Ideal

noncomputable section

namespace Cert.GcnDense

open Idealize.ShloMosaic Idealize.ShloMosaic.ValueIdx

/-- The product `x · w`, entry by entry: `(x · w) (r, j) = ∑ q, x (r, q) · w (q, j)`. -/
def rowsTimes (x : FVec Ideal ⟨2, ![200000, 602]⟩ .f32) (w : FVec Ideal ⟨2, ![602, 41]⟩ .f32) :
    FVec Ideal ⟨2, ![200000, 41]⟩ .f32 :=
  fun i => ∑ q : Fin 602, x (ix2 (⟨(i 0).val, idx2_lt0 i⟩ : Fin 200000) q) * w (ix2 q (⟨(i 1).val, idx2_lt1 i⟩ : Fin 41))

/-- The product at an entry given by its row and column. -/
theorem rowsTimes_ix2 (x : FVec Ideal ⟨2, ![200000, 602]⟩ .f32) (w : FVec Ideal ⟨2, ![602, 41]⟩ .f32)
    (r : Fin 200000) (j : Fin 41) :
    rowsTimes x w (ix2 r j) = ∑ q : Fin 602, x (ix2 r q) * w (ix2 q j) := rfl

end Cert.GcnDense

end
-- ==== Proof.KernelRows.lean ====
/-
  The kernel's dense product, block by block.  The grid has 25 points; point `t` is handed rows
  `8000 t … 8000 t + 7999` of the node features `x` and all of the weights `w`, multiplies them into a zero
  accumulator, and writes the 8000 × 41 result back as rows `8000 t … 8000 t + 7999` of the output.  Entry
  `(p, j)` of that block is `∑ q, x (8000 t + p, q) · w (q, j)`: row `8000 t + p` of the whole product `x · w`.
  The 25 row blocks tile the 200000 rows, so after the last point the output array is `x · w`.
-/
import proofs.«111310_j61375082659924_2_alg».proof.Proof.Gen.KernelIdeal.Frame
import proofs.«111310_j61375082659924_2_alg».proof.Proof.LibPlainDot
import proofs.«111310_j61375082659924_2_alg».proof.Proof.Dense
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.GcnDense

variable (m : (ℓ : Loc nD τ sig) → Buf (Elt Ideal) ℓ)

theorem zeros : (![0, 0] : Fin 2 → Nat) = fun _ => 0 := funext fun a => by fin_cases a <;> rfl

/-- What the body stores, at an entry of the block: the sum over the feature `q` of the loaded feature block at
    `(p, q)` times the loaded weights at `(q, j)` (the accumulator starts at zero). -/
theorem stored_apply (x0 : FVec Ideal S8000x602 .f32) (x1 : FVec Ideal S602x41 .f32) (p : Fin 8000) (j : Fin 41) :
    k0_pay1 (F := Ideal) x0 x1 (ix2 p j) = ∑ q : Fin 602, x0 (ix2 p q) * x1 (ix2 q j) := by
  unfold k0_pay1
  exact Cert.PlainDot.matmul_zero_apply (M := 8000) (K := 602) (N := 41) (φ₁ := .f32) (φ₂ := .f32)
    dot_S8000x602_S602x41_S8000x41_1_0_0_1_n_n rfl rfl rfl rfl rfl rfl none x0 x1 p j

/-- The block index maps over the grid: the feature block and the output block move down the rows with the point,
    the weights stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `8000 t + p` of the features. -/
theorem x_block (c : Dev nD) (t : Fin cfg0.N) (p : Fin 8000) (q : Fin 602) (r : Fin 200000)
    (hr : r.val = 8000 * t.val + p.val) :
    (iblk m c 0 t : Vec Ideal S8000x602 .f32) (ix2 p q) = (V m c main_arg0 : Vec Ideal S200000x602 .f32) (ix2 r q) := by
  obtain ⟨e0, e1, -, -, -, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 8000 + 1 * p.val = r.val; rw [e0, hr]; omega
  | ⟨1, _⟩ => show win0_0.index t (1 : Fin 2) * 602 + 1 * q.val = q.val; rw [e1]; omega

/-- The weights' block at every point is the weights. -/
theorem w_block (c : Dev nD) (t : Fin cfg0.N) (q : Fin 602) (j : Fin 41) :
    (iblk m c 1 t : Vec Ideal S602x41 .f32) (ix2 q j) = (V m c main_arg1 : Vec Ideal S602x41 .f32) (ix2 q j) := by
  obtain ⟨-, -, e0, e1, -, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 602 + 1 * q.val = q.val; rw [e0]; omega
  | ⟨1, _⟩ => show win0_1.index t (1 : Fin 2) * 41 + 1 * j.val = j.val; rw [e1]; omega

/-- What point `t` writes back is its block of rows of `x · w`. -/
theorem flushed_eq (c : Dev nD) (t : Fin cfg0.N) :
    (dats m 0 c).flushed 2 t
      = ((cfg0.win 2).blk t).view.read (Elt Ideal) (rowsTimes (V m c main_arg0) (V m c main_arg1)) := by
  show (cfg0.win 2).cut (grid0.coords t) ((dats m 0 c).after 2 t) = _
  rw [after0_2]
  unfold out0_2
  rw [View.canon_unit_zero zeros]
  simp only [View.ld_unit_zero (S := S8000x602) zeros, View.ld_unit_zero (S := S602x41) zeros]
  obtain ⟨-, -, -, -, e0, e1⟩ := idx_facts t
  have hN : cfg0.N = 25 := N_0
  funext y
  obtain ⟨p, j, rfl⟩ : ∃ (p : Fin 8000) (j : Fin 41), y = ix2 p j := ⟨y 0, y 1, eq_ix2 (n0 := 8000) (n1 := 41) y⟩
  have hr : 8000 * t.val + p.val < 200000 := by
    have h1 : t.val < 25 := by have := t.isLt; omega
    have h2 : p.val < 8000 := p.isLt
    omega
  have he : ((cfg0.win 2).blk t).view.emb (ix2 p j) = ix2 (⟨8000 * t.val + p.val, hr⟩ : Fin 200000) j := by
    funext a
    apply Fin.ext
    match a with
    | ⟨0, _⟩ => show win0_2.index t (0 : Fin 2) * 8000 + 1 * p.val = 8000 * t.val + p.val; rw [e0]; omega
    | ⟨1, _⟩ => show win0_2.index t (1 : Fin 2) * 41 + 1 * j.val = j.val; rw [e1]; omega
  show k0_pay1 (iblk m c 0 t) (iblk m c 1 t) (ix2 p j)
    = rowsTimes (V m c main_arg0) (V m c main_arg1) (((cfg0.win 2).blk t).view.emb (ix2 p j))
  rw [he, rowsTimes_ix2]
  refine (stored_apply (iblk m c 0 t) (iblk m c 1 t) p j).trans ?_
  refine Finset.sum_congr rfl fun q _ => ?_
  rw [x_block m c t p q ⟨8000 * t.val + p.val, hr⟩ rfl, w_block m c t q j]

/-- An entry of the output is in point `t`'s block iff its row is among rows `8000 t … 8000 t + 7999`. -/
theorem mem_rows (t : Fin cfg0.N) (i : S200000x41.Idx) :
    i ∈ ((cfg0.win 2).blk t).view.set ↔ ∀ a : Fin 2, win0_2.index t a * S8000x41.size a ≤ (i a).val
      ∧ (i a).val < win0_2.index t a * S8000x41.size a + S8000x41.size a := by
  show i ∈ ((View.whole main_v29).slice (win0_2.rect t)).set ↔ _
  rw [View.set_slice_whole, Rect.mem_set_unit]
  exact Iff.rfl

/-- Every entry of the output is written by the point that holds its row: row `r` by point `r / 8000`. -/
theorem covered (i : S200000x41.Idx) :
    ∃ t : Fin cfg0.N, (cfg0.win 2).flush t = true ∧ i ∈ ((cfg0.win 2).blk t).view.set := by
  have h0 : (i 0).val < 200000 := (i 0).isLt
  have h1 : (i 1).val < 41 := (i 1).isLt
  have hN : cfg0.N = 25 := N_0
  obtain ⟨t0, ht⟩ : ∃ t0 : Fin cfg0.N, t0.val = (i 0).val / 8000 :=
    ⟨⟨(i 0).val / 8000, by rw [hN]; omega⟩, rfl⟩
  obtain ⟨-, -, -, -, e0, e1⟩ := idx_facts t0
  refine ⟨t0, flush0_2 t0, ?_⟩
  rw [mem_rows]
  intro a
  match a with
  | ⟨0, _⟩ =>
    show win0_2.index t0 (0 : Fin 2) * 8000 ≤ (i 0).val ∧ (i 0).val < win0_2.index t0 (0 : Fin 2) * 8000 + 8000
    rw [e0, ht]; omega
  | ⟨1, _⟩ =>
    show win0_2.index t0 (1 : Fin 2) * 41 ≤ (i 1).val ∧ (i 1).val < win0_2.index t0 (1 : Fin 2) * 41 + 41
    rw [e1]; omega

/-- After the run the output array of the call holds `x · w`. -/
theorem dense_rows (c : Dev nD) :
    (dats m 0 c).arrAt 2 cfg0.N
      = rowsTimes (m ((c : Thread nD τ).loc main_arg0)) (m ((c : Thread nD τ).loc main_arg1)) := by
  rw [← V_main_arg0 m c, ← V_main_arg1 m c]
  exact (dats m 0 c).arrAt_eq_of_cover 2 (rowsTimes (V m c main_arg0) (V m c main_arg1))
    (fun t _ => flushed_eq m c t) covered

end Cert.KernelIdeal.Rows

end
-- ==== Proof.Tail.lean ====
/-
  What both programs do with the dense product `h` once they have it.  Every edge of the graph (a self-loop
  at every node included) carries row `src` of `h`, scaled by the edge's normalisation weight, to node `dst`,
  where the rows that arrive are added up; the bias is added to every row; and every row is then sent to its
  logarithmic softmax: the row minus its maximum, minus the logarithm of the sum of the exponentials of that
  difference.  These are the host operations that follow the product, kept here as two functions of the
  product and of the few earlier values they read, so that they are applied and never opened.
-/
import proofs.«111310_j61375082659924_2_alg».proof.KernelIdeal
import proofs.«111310_j61375082659924_2_alg».proof.Proof.Gen.KernelIdeal

noncomputable section

namespace Cert.KernelIdeal.Tail

open Cert.KernelIdeal Cert.KernelIdeal.Gen Idealize.ShloMosaic

variable {F : FTy → Type} [FloatOps F]

/-- A list of node numbers as a column of row positions, a negative entry counted back from the number of nodes. -/
def rowsOf (s : IVec S3400000 32) : IVec S3400000x1 32 :=
  broadcastInDim S3400000x1 ![0] bcast_S3400000_S3400000x1_0
    (select (cmpi .slt s (broadcastInDim S3400000 ![] bcast_S_S3400000 (constantI S_ 32 0#32)))
      (addi s (broadcastInDim S3400000 ![] bcast_S_S3400000 (constantI S_ 32 200000#32))) s)

/-- The aggregation: into zeros, at row `dst e`, the sum over the edges `e` of row `src e` of `h` times
    `norm e`; then the bias `b` added to every row. -/
def aggregate (h : FVec F S200000x41 .f32) (src dst : IVec S3400000 32) (norm : FVec F S3400000 .f32)
    (b : FVec F S41 .f32) : FVec F S200000x41 .f32 :=
  addf
    (Host.scatterAdd scatter_S200000x41_S3400000x1_S3400000x41_1_0_0_1
      (broadcastInDim S200000x41 ![] bcast_S_S200000x41 (constant (F := F) S_ .f32 0x00000000#32))
      (broadcastInDim S3400000x1 ![0] bcast_S3400000_S3400000x1_0 dst)
      (mulf (Host.gather gather_S200000x41_S3400000x1_S3400000x41_1_0_n_n_0_1_141 h (rowsOf src))
        (broadcastInDim S3400000x41 ![0, 1] bcast_S3400000x1_S3400000x41_0_1
          (broadcastInDim S3400000x1 ![0] bcast_S3400000_S3400000x1_0 norm))))
    (broadcastInDim S200000x41 ![0, 1] bcast_S1x41_S200000x41_0_1 (broadcastInDim S1x41 ![1] bcast_S41_S1x41_1 b))

/-- Every row minus its own maximum (the maximum taken from minus infinity). -/
def centred (a : FVec F S200000x41 .f32) : FVec F S200000x41 .f32 :=
  subf a
    (broadcastInDim S200000x41 ![0, 1] bcast_S200000x1_S200000x41_0_1
      (broadcastInDim S200000x1 ![0] bcast_S200000_S200000x1_0
        (maximumf (broadcastInDim S200000 ![] bcast_S_S200000 (constant (F := F) S_ .f32 0xFF800000#32))
          (Host.reduce FloatOps.maximumf a (constant (F := F) S_ .f32 0xFF800000#32)
            reducesTo_S200000x41_S200000_d1 h_S_))))

/-- The logarithmic softmax of every row: the centred row minus the logarithm of the sum of its exponentials. -/
def logSoftmax (a : FVec F S200000x41 .f32) : FVec F S200000x41 .f32 :=
  subf (centred a)
    (broadcastInDim S200000x41 ![0, 1] bcast_S200000x1_S200000x41_0_1
      (Host.log
        (broadcastInDim S200000x1 ![0] bcast_S200000_S200000x1_0
          (Host.reduceAdd (Host.exp (centred a)) (constant (F := F) S_ .f32 0x00000000#32)
            reducesTo_S200000x41_S200000_d1 h_S_))))

end Cert.KernelIdeal.Tail

end
-- ==== Proof.KernelAfter.lean ====
/-
  The kernel's program after its call.  The call leaves the dense product in its output array; the host lines
  that follow read that array, the edge lists and the edge weights computed before the call, and the bias, and
  produce the two results: the aggregated rows with the bias, and their logarithmic softmax.
-/
import proofs.«111310_j61375082659924_2_alg».proof.Proof.Gen.KernelIdeal.Frame
import proofs.«111310_j61375082659924_2_alg».proof.Proof.Tail
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.After

open Cert.KernelIdeal Cert.KernelIdeal.Gen Cert.KernelIdeal.Tail

variable {F : FTy → Type} [FloatOps F]

set_option maxRecDepth 16384 in
set_option maxHeartbeats 8000000 in
/-- From any contents `W` of the buffers, the lines after the call leave in the first result the aggregation
    of what `W` holds of the product, the two edge lists, the edge weights and the bias. -/
theorem after_aggregate (W : Valuation τ sig (Elt F)) :
    after (List.flatten [hostOps1, hostOps1_1]) W (Proc.devRef .tc main_v45)
      = aggregate (F := F) (W (Proc.devRef .tc main_v29)) (W (Proc.devRef .tc main_v3)) (W (Proc.devRef .tc main_v6))
          (W (Proc.devRef .tc main_v28)) (W (Proc.devRef .tc main_arg2)) := by
  simp only [hostOps1, hostOps1_1, List.flatten_cons, List.flatten_nil, List.append_nil, List.cons_append,
    List.nil_append]
  after_results_simp
  rfl

/-- Contents carried to a buffer's own type and back are the contents. -/
theorem ofBuf_toBuf {T : BufTy} (x : TRef sig T) (v : T.Contents (Elt F)) : x.ofBuf (x.toBuf v) = v := by
  obtain ⟨r, rfl, _, _⟩ := x; rfl

set_option maxRecDepth 16384 in
set_option maxHeartbeats 8000000 in
/-- and in the second result the logarithmic softmax of the first. -/
theorem after_logSoftmax (W : Valuation τ sig (Elt F)) :
    after (List.flatten [hostOps1, hostOps1_1]) W (Proc.devRef .tc main_v46)
      = logSoftmax (F := F) (aggregate (F := F) (W (Proc.devRef .tc main_v29)) (W (Proc.devRef .tc main_v3))
          (W (Proc.devRef .tc main_v6)) (W (Proc.devRef .tc main_v28)) (W (Proc.devRef .tc main_arg2))) := by
  have e45 : ∀ v : FVec F S200000x41 .f32, (TRef.of (T := ⟨S200000x41, .f32⟩) main_v45).ofBuf (Val := Elt F) v = v :=
    fun _ => rfl
  have e46 : ∀ v : FVec F S200000x41 .f32, (TRef.of (T := ⟨S200000x41, .f32⟩) main_v46).toBuf (Val := Elt F) v = v :=
    fun _ => rfl
  simp only [hostOps1, hostOps1_1, List.flatten_cons, List.flatten_nil, List.append_nil, List.cons_append,
    List.nil_append]
  after_results_simp
  simp only [ofBuf_toBuf, e45, e46]
  unfold logSoftmax centred aggregate rowsOf
  rfl

variable (m : (ℓ : Loc nD τ sig) → Buf (Elt F) ℓ) (ρ : Dev nD → PrngReg)

/-- Core `c`'s buffers as the call leaves them: its three arrays as the pipeline leaves them, every other
    buffer as the call found it. -/
def exitVal (c : Dev nD) : Valuation τ sig (Elt F) :=
  Pipeline.withArrays (cfgs 0).spec c (V0 m c) fun w => (dats m 0 c).arrAt w (cfgs 0).N

/-- The call's output array is read back from what the pipeline left there. -/
theorem exit_product (c : Dev nD) : exitVal m c (Proc.devRef .tc main_v29) = (dats m 0 c).arrAt 2 cfg0.N :=
  Pipeline.withArrays_arr spec0 launch0.win.arr_inj c (V0 m c) (fun w => (dats m 0 c).arrAt w cfg0.N) 2

/-- A buffer that is no array of the call is as the call found it. -/
theorem exit_other (c : Dev nD) (b : Ref sig .tc) (hb : ∀ w, Pipeline.arrRef spec0 w ≠ b) :
    exitVal m c (Proc.devRef .tc b) = V m c b :=
  Pipeline.withArrays_of_ne spec0 c (V0 m c) (fun w => (dats m 0 c).arrAt w cfg0.N) b hb

/-- The first result after the run: the aggregation of the call's output array, of the edge lists and the
    edge weights as the call found them, and of the bias. -/
def out0 (c : Dev nD) : FVec F S200000x41 .f32 :=
  aggregate (F := F) ((dats m 0 c).arrAt 2 cfg0.N) (V m c main_v3) (V m c main_v6) (V m c main_v28)
    (m ((c : Thread nD τ).loc main_arg2))

theorem result0 (c : Dev nD) :
    Pipeline.afterTail₀ cfgs (dats m) 0 (V0 m) [hostOps1, hostOps1_1] c main_v45 = out0 m c := by
  refine (after_aggregate (exitVal m c)).trans ?_
  unfold out0
  rw [exit_product, exit_other m c main_v3 (by decide), exit_other m c main_v6 (by decide),
    exit_other m c main_v28 (by decide), exit_other m c main_arg2 (by decide), V_main_arg2]

theorem result1 (c : Dev nD) :
    Pipeline.afterTail₀ cfgs (dats m) 0 (V0 m) [hostOps1, hostOps1_1] c main_v46 = logSoftmax (out0 m c) := by
  refine (after_logSoftmax (exitVal m c)).trans ?_
  unfold out0
  rw [exit_product, exit_other m c main_v3 (by decide), exit_other m c main_v6 (by decide),
    exit_other m c main_v28 (by decide), exit_other m c main_arg2 (by decide), V_main_arg2]

/-- The kernel's run, read: the two results at the aggregation and its logarithmic softmax, the four arguments
    unchanged. -/
theorem run : θ_run defs (onTc (τ := τ) (main (F := F))) ⟨m, fun _ => 0, ρ⟩ (fun r => ∀ c : Dev nD,
      r.2.mem ((c.tc : Thread nD τ).loc main_v45) = out0 m c
      ∧ r.2.mem ((c.tc : Thread nD τ).loc main_v46) = logSoftmax (out0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v45 (Pipeline.mem_restRefs_of main_v45 (by decide) (by decide))).trans (result0 m c),
       ((h c).2 main_v46 (Pipeline.mem_restRefs_of main_v46 (by decide) (by decide))).trans (result1 m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.After

end
-- ==== Proof.RefSide.lean ====
/-
  The reference, read against the same three functions.  Its dense product is one `dot_general` of the whole
  matrices, whose entry `(r, j)` at the ideal values is `∑ q, x (r, q) · w (q, j)`: the function `rowsTimes`.
  What it does with the product afterwards is the aggregation and the logarithmic softmax, operation for
  operation the host lines of the kernel's program.
-/
import proofs.«111310_j61375082659924_2_alg».proof.Proof.ReadP
import proofs.«111310_j61375082659924_2_alg».proof.Proof.Dense
import proofs.«111310_j61375082659924_2_alg».proof.Proof.Tail
import Idealize.ShloMosaic.Lib.ValueIdx

noncomputable section

open Idealize.ShloMosaic Idealize.ShloMosaic.ValueIdx

namespace Cert.ReferenceIdeal.Hand

open Cert.ReferenceIdeal Cert.ReferenceIdeal.Gen Cert.ReferenceIdeal.ReadP Cert.GcnDense

/-- The reference's `dot_general` is the product `x · w`, entry by entry. -/
theorem product_eq (x0 : FVec Ideal S200000x602 .f32) (x1 : FVec Ideal S602x41 .f32) :
    val_main_v29 (F := Ideal) x0 x1 = rowsTimes x0 x1 := by
  funext i
  rw [val_main_v29_apply]
  unfold rowsTimes
  refine Finset.sum_congr rfl fun q _ => ?_
  have el : lidx_main_v29 i q = ix2 (⟨(i 0).val, idx2_lt0 i⟩ : Fin 200000) q :=
    funext fun a => Fin.ext (by match a with | ⟨0, _⟩ => rfl | ⟨1, _⟩ => rfl)
  have er : ridx_main_v29 i q = ix2 q (⟨(i 1).val, idx2_lt1 i⟩ : Fin 41) :=
    funext fun a => Fin.ext (by match a with | ⟨0, _⟩ => rfl | ⟨1, _⟩ => rfl)
  rw [el, er]

variable {F : FTy → Type} [FloatOps F]

/-- The reference's first result is the aggregation of its product, its two edge lists, its edge weights and
    the bias. -/
theorem out0_eq (x0 : FVec F S200000x602 .f32) (x1 : FVec F S602x41 .f32) (x2 : FVec F S41 .f32)
    (x3 : IVec S2x3200000 32) :
    val_main_v45 (F := F) x0 x1 x2 x3
      = Cert.KernelIdeal.Tail.aggregate (F := F) (val_main_v29 (F := F) x0 x1) (val_main_v3 (F := F) x3)
          (val_main_v6 (F := F) x3) (val_main_v28 (F := F) x3) x2 := by
  unfold val_main_v45 val_main_v42 val_main_v44 val_main_v43 val_main_v39 val_main_v36 val_main_v38 val_main_v37
    val_main_v35 val_main_v34 val_main_v31 val_main_v33 val_main_v30 val_main_v32 val_main_c_5 val_main_c_6
    val_main_v40 val_main_cst_7 val_main_v41
  rfl

/-- and its second result the logarithmic softmax of the first. -/
theorem out1_eq (x0 : FVec F S200000x602 .f32) (x1 : FVec F S602x41 .f32) (x2 : FVec F S41 .f32)
    (x3 : IVec S2x3200000 32) :
    val_main_v46 (F := F) x0 x1 x2 x3 = Cert.KernelIdeal.Tail.logSoftmax (F := F) (val_main_v45 (F := F) x0 x1 x2 x3) := by
  unfold val_main_v46 val_main_call0_v10 val_main_call0_v9 val_main_call0_v8 val_main_call0_v7 val_main_call0_v6
    val_main_call0_v5 val_main_call0_v4 val_main_call0_v3 val_main_call0_v2 val_main_call0_v1 val_main_call0_v0
    val_main_call0_cst val_main_call0_cst_0 val_main_call0_cst_1
  rfl

end Cert.ReferenceIdeal.Hand

end
-- ==== Proof.Entry.lean ====
/-
  What the kernel's call finds in the buffers the later host lines read: the source and destination lists of the
  edges (the given edges followed by one self-loop per node) and the edges' normalisation weights (the product of
  the inverse square roots of the two end nodes' degrees).  The kernel's program computes them before its call
  by the operations the reference computes them by, so each is the reference's value of the same name.
-/
import proofs.«111310_j61375082659924_2_alg».proof.Proof.Gen.KernelIdeal.Frame
import proofs.«111310_j61375082659924_2_alg».proof.Proof.ReadP
import Idealize.ShloMosaic.Lib.StableHlo.Run

noncomputable section

open Idealize.ShloMosaic Idealize.ShloMosaic.TcCoe Idealize.SL.Sem Idealize.ShloMosaic.StableHlo

namespace Cert.KernelIdeal.Entry

open Cert.KernelIdeal Cert.KernelIdeal.Gen

variable {F : FTy → Type} [FloatOps F]
variable (m : (ℓ : Loc nD τ sig) → Buf (Elt F) ℓ)

set_option maxRecDepth 16384 in
set_option maxHeartbeats 8000000 in
/-- The edges' sources: the first row of the edge array, then the nodes in order. -/
theorem sources (c : Dev nD) :
    V m c main_v3 = Cert.ReferenceIdeal.ReadP.val_main_v3 (F := F) (m ((c : Thread nD τ).loc main_arg3)) := by
  dsimp only [V, V0]
  simp only [hostOps0, List.flatten_cons, List.flatten_nil, List.append_nil, List.cons_append, List.nil_append]
  after_results_simp
  rfl

set_option maxRecDepth 16384 in
set_option maxHeartbeats 8000000 in
/-- The edges' destinations: the second row of the edge array, then the nodes in order. -/
theorem destinations (c : Dev nD) :
    V m c main_v6 = Cert.ReferenceIdeal.ReadP.val_main_v6 (F := F) (m ((c : Thread nD τ).loc main_arg3)) := by
  dsimp only [V, V0]
  simp only [hostOps0, List.flatten_cons, List.flatten_nil, List.append_nil, List.cons_append, List.nil_append]
  after_results_simp
  rfl

set_option maxRecDepth 16384 in
set_option maxHeartbeats 8000000 in
/-- The edges' weights: at each edge the product of the inverse square roots of the degrees (at least one) of its
    two end nodes. -/
theorem weights (c : Dev nD) :
    V m c main_v28 = Cert.ReferenceIdeal.ReadP.val_main_v28 (F := F) (m ((c : Thread nD τ).loc main_arg3)) := by
  dsimp only [V, V0]
  simp only [hostOps0, List.flatten_cons, List.flatten_nil, List.append_nil, List.cons_append, List.nil_append]
  after_results_simp
  rfl

end Cert.KernelIdeal.Entry

end
-- ==== Proof.lean ====
/-
  A graph convolution followed by a logarithmic softmax: the node features `x` are multiplied by the weights `w`,
  every edge (and a self-loop at every node) carries the product's row at its source, scaled by the inverse square
  roots of the degrees of its two ends, to its destination, where the rows are added; the bias is added, and every
  row is sent to its logarithmic softmax.  The kernel computes the product `x · w` in a call that takes the rows
  8000 at a time, and does everything else on the host exactly as the reference does; the reference computes the
  product as one `dot_general`.  At the ideal values both products are the same function of `x` and `w` — entry
  `(r, j)` is `∑ q, x (r, q) · w (q, j)`, a row of the product depending on the same row of `x` only — and the
  same later operations applied to equal values give equal results.  No law of the extended reals is used beyond
  that, so the finiteness of the inputs is never opened.  The statement lists no rewrite between the kernel and its
  idealization (the conjunct about it is `True`): the idealized kernel is the kernel's own text read at the ideal values.
-/
import proofs.«111310_j61375082659924_2_alg».proof.Defs
import proofs.«111310_j61375082659924_2_alg».proof.Proof.Gen.Kernel
import proofs.«111310_j61375082659924_2_alg».proof.Proof.Gen.Kernel.Skeleton
import proofs.«111310_j61375082659924_2_alg».proof.Proof.Gen.Kernel.Launch
import proofs.«111310_j61375082659924_2_alg».proof.Proof.Gen.Kernel.Points
import proofs.«111310_j61375082659924_2_alg».proof.Proof.Gen.Kernel.Frame
import proofs.«111310_j61375082659924_2_alg».proof.Proof.Gen.KernelIdeal
import proofs.«111310_j61375082659924_2_alg».proof.Proof.Gen.KernelIdeal.Skeleton
import proofs.«111310_j61375082659924_2_alg».proof.Proof.Gen.KernelIdeal.Launch
import proofs.«111310_j61375082659924_2_alg».proof.Proof.Gen.KernelIdeal.Points
import proofs.«111310_j61375082659924_2_alg».proof.Proof.Gen.KernelIdeal.Frame
import proofs.«111310_j61375082659924_2_alg».proof.Proof.Gen.ReferenceIdeal
import proofs.«111310_j61375082659924_2_alg».proof.Proof.Gen.Pre_finite_inputs
import proofs.«111310_j61375082659924_2_alg».proof.Proof.KernelRows
import proofs.«111310_j61375082659924_2_alg».proof.Proof.KernelAfter
import proofs.«111310_j61375082659924_2_alg».proof.Proof.RefSide
import proofs.«111310_j61375082659924_2_alg».proof.Proof.Entry
import Idealize.ShloMosaic.Adequacy
import Idealize.ShloMosaic.Init

noncomputable section

namespace Cert.Proof

open Idealize.ShloMosaic Idealize.SL.Sem

/-- The kernel's program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a host program: its run, with the results forgotten. -/
theorem frame_ri : Cert.frame_ReferenceIdeal := fun m ρ _ =>
  (θ_run Cert.ReferenceIdeal.defs _ _).mono (fun _ h c => (h c).2.2)
    (Cert.ReferenceIdeal.ValueP.run (F := Ideal) m ρ)

/-- The two programs end with equal results: the reference's product is the kernel's (both are `x · w`), the edge
    lists and edge weights the later lines read are the same values in both, and the later lines are the same
    two functions of them. -/
theorem algebraic : Cert.algebraic_KernelIdeal_ReferenceIdeal := by
  intro m ρ m' ρ' _ hagree
  refine ⟨fun c => Cert.KernelIdeal.After.out0 m c,
    fun c => Cert.KernelIdeal.Tail.logSoftmax (Cert.KernelIdeal.After.out0 m c),
    Cert.KernelIdeal.After.run (F := Ideal) m ρ, ?_⟩
  refine (θ_run Cert.ReferenceIdeal.defs _ _).mono (fun _ h c => ?_)
    (Cert.ReferenceIdeal.ValueP.run (F := Ideal) m' ρ')
  obtain ⟨h0, h1, hrest⟩ := h c
  obtain ⟨a0, a1, a2, a3⟩ := hagree c
  have e0 : Cert.ReferenceIdeal.ValueP.res_main_v45 m' c = Cert.KernelIdeal.After.out0 m c := by
    rw [Cert.ReferenceIdeal.ReadP.val_main_v45_eq, Cert.ReferenceIdeal.Hand.out0_eq,
      Cert.ReferenceIdeal.Hand.product_eq, a0, a1, a2, a3]
    unfold Cert.KernelIdeal.After.out0
    rw [Cert.KernelIdeal.Rows.dense_rows, Cert.KernelIdeal.Entry.sources, Cert.KernelIdeal.Entry.destinations,
      Cert.KernelIdeal.Entry.weights]
    try rfl
  have e1 : Cert.ReferenceIdeal.ValueP.res_main_v46 m' c
      = Cert.KernelIdeal.Tail.logSoftmax (Cert.KernelIdeal.After.out0 m c) := by
    rw [Cert.ReferenceIdeal.ReadP.val_main_v46_eq, Cert.ReferenceIdeal.Hand.out1_eq,
      ← Cert.ReferenceIdeal.ReadP.val_main_v45_eq, e0]
    try rfl
  exact ⟨h0.trans e0, h1.trans e1, hrest⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
